-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x3072 : Shape := ⟨2, ![8192, 3072]⟩
abbrev S3072x1536 : Shape := ⟨2, ![3072, 1536]⟩
abbrev S1536 : Shape := ⟨1, ![1536]⟩
abbrev S1536x3072 : Shape := ⟨2, ![1536, 3072]⟩
abbrev S_ : Shape := ⟨0, ![]⟩

class Facts : Prop where
  bcast_S_S8192x3072 : S_.BroadcastsInDim S8192x3072 (![] : Fin 0 → Fin S8192x3072.rank)
  reducesTo_S8192x3072_S_d0_1 : S8192x3072.ReducesTo [0, 1] S_
  h_S_ : 0 < S_.numel
  bcast_S_S3072x1536 : S_.BroadcastsInDim S3072x1536 (![] : Fin 0 → Fin S3072x1536.rank)
  reducesTo_S3072x1536_S_d0_1 : S3072x1536.ReducesTo [0, 1] S_
  bcast_S_S1536 : S_.BroadcastsInDim S1536 (![] : Fin 0 → Fin S1536.rank)
  reducesTo_S1536_S_d0 : S1536.ReducesTo [0] S_
  bcast_S_S1536x3072 : S_.BroadcastsInDim S1536x3072 (![] : Fin 0 → Fin S1536x3072.rank)
  reducesTo_S1536x3072_S_d0_1 : S1536x3072.ReducesTo [0, 1] S_

variable [Facts]

def fn_part1 {F : FTy → Type} [FloatOps F] (main_v13 : IVec S_ 1) (main_v16 : IVec S1536x3072 1) : IVec S_ 1 :=
  let main_c_5 : IVec S_ 1 := constantI S_ 1 1#1
  let main_v17 : IVec S_ 1 := (fun x v => Host.reduce IntOp.andi x v reducesTo_S1536x3072_S_d0_1 h_S_) main_v16 main_c_5
  let main_v18 : IVec S_ 1 := andi main_v13 main_v17
  main_v18

def fn {F : FTy → Type} [FloatOps F] (main_arg0 : FVec F S8192x3072 .f32) (main_arg1 : FVec F S3072x1536 .f32) (main_arg2 : FVec F S1536 .f32) (main_arg3 : FVec F S1536x3072 .f32) : IVec S_ 1 :=
  let main_v0 : FVec F S8192x3072 .f32 := Host.absf main_arg0
  let main_cst : FVec F S_ .f32 := constant S_ .f32 0x7F800000#32
  let main_v1 : FVec F S8192x3072 .f32 := broadcastInDim S8192x3072 ![] bcast_S_S8192x3072 main_cst
  let main_v2 : IVec S8192x3072 1 := cmpf .olt main_v0 main_v1
  let main_c : IVec S_ 1 := constantI S_ 1 1#1
  let main_v3 : IVec S_ 1 := (fun x v => Host.reduce IntOp.andi x v reducesTo_S8192x3072_S_d0_1 h_S_) main_v2 main_c
  let main_v4 : FVec F S3072x1536 .f32 := Host.absf main_arg1
  let main_cst_0 : FVec F S_ .f32 := constant S_ .f32 0x7F800000#32
  let main_v5 : FVec F S3072x1536 .f32 := broadcastInDim S3072x1536 ![] bcast_S_S3072x1536 main_cst_0
  let main_v6 : IVec S3072x1536 1 := cmpf .olt main_v4 main_v5
  let main_c_1 : IVec S_ 1 := constantI S_ 1 1#1
  let main_v7 : IVec S_ 1 := (fun x v => Host.reduce IntOp.andi x v reducesTo_S3072x1536_S_d0_1 h_S_) main_v6 main_c_1
  let main_v8 : IVec S_ 1 := andi main_v3 main_v7
  let main_v9 : FVec F S1536 .f32 := Host.absf main_arg2
  let main_cst_2 : FVec F S_ .f32 := constant S_ .f32 0x7F800000#32
  let main_v10 : FVec F S1536 .f32 := broadcastInDim S1536 ![] bcast_S_S1536 main_cst_2
  let main_v11 : IVec S1536 1 := cmpf .olt main_v9 main_v10
  let main_c_3 : IVec S_ 1 := constantI S_ 1 1#1
  let main_v12 : IVec S_ 1 := (fun x v => Host.reduce IntOp.andi x v reducesTo_S1536_S_d0 h_S_) main_v11 main_c_3
  let main_v13 : IVec S_ 1 := andi main_v8 main_v12
  let main_v14 : FVec F S1536x3072 .f32 := Host.absf main_arg3
  let main_cst_4 : FVec F S_ .f32 := constant S_ .f32 0x7F800000#32
  let main_v15 : FVec F S1536x3072 .f32 := broadcastInDim S1536x3072 ![] bcast_S_S1536x3072 main_cst_4
  let main_v16 : IVec S1536x3072 1 := cmpf .olt main_v14 main_v15
  fn_part1 (F := F) main_v13 main_v16
-- ==== Kernel.lean ====
abbrev S8192x3072 : Shape := ⟨2, ![8192, 3072]⟩
abbrev S3072x1536 : Shape := ⟨2, ![3072, 1536]⟩
abbrev S1536 : Shape := ⟨1, ![1536]⟩
abbrev S1536x3072 : Shape := ⟨2, ![1536, 3072]⟩
abbrev S1x1536 : Shape := ⟨2, ![1, 1536]⟩
abbrev S8192x1536 : Shape := ⟨2, ![8192, 1536]⟩
abbrev S512x3072 : Shape := ⟨2, ![512, 3072]⟩
abbrev S512x1536 : Shape := ⟨2, ![512, 1536]⟩

abbrev nBuf : Space → Nat
  | .hbm => 9
  | .vmem => 6
  | .smem => 0
  | _ => 0

abbrev bufTy : (tb : Table) → Fin (tcTables nBuf tb) → BufTy
  | .hbm, ⟨0, _⟩ => ⟨S8192x3072, .f32⟩
  | .hbm, ⟨1, _⟩ => ⟨S3072x1536, .f32⟩
  | .hbm, ⟨2, _⟩ => ⟨S1536, .f32⟩
  | .hbm, ⟨3, _⟩ => ⟨S1536x3072, .f32⟩
  | .hbm, ⟨4, _⟩ => ⟨S3072x1536, .f32⟩
  | .hbm, ⟨5, _⟩ => ⟨S3072x1536, .f32⟩
  | .hbm, ⟨6, _⟩ => ⟨S3072x1536, .bf16⟩
  | .hbm, ⟨7, _⟩ => ⟨S1x1536, .f32⟩
  | .hbm, ⟨8, _⟩ => ⟨S8192x1536, .f32⟩
  | .local _ .vmem, ⟨0, _⟩ => ⟨S512x3072, .f32⟩
  | .local _ .vmem, ⟨1, _⟩ => ⟨S512x3072, .f32⟩
  | .local _ .vmem, ⟨2, _⟩ => ⟨S3072x1536, .bf16⟩
  | .local _ .vmem, ⟨3, _⟩ => ⟨S1x1536, .f32⟩
  | .local _ .vmem, ⟨4, _⟩ => ⟨S512x1536, .f32⟩
  | .local _ .vmem, ⟨5, _⟩ => ⟨S512x1536, .f32⟩
  | _, _ => ⟨S8192x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x3072 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3072x1536 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1536 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  transposes_S1536x3072_S3072x1536_1_0 : S1536x3072.Transposes [1, 0] S3072x1536
  bitsLt_bf16_f32 : FTy.bits .bf16 < FTy.bits .f32
  shapeCasts_S1536_S1x1536 : S1536.ShapeCasts S1x1536
  inb_S512x3072_S512x3072_0_0 : ∀ a, (![0, 0] : Fin 2 → Nat) a + S512x3072.size a ≤ S512x3072.size a
  h_S512x3072 : 0 < S512x3072.numel
  inb_S3072x1536_S3072x1536_0_0 : ∀ a, (![0, 0] : Fin 2 → Nat) a + S3072x1536.size a ≤ S3072x1536.size a
  h_S3072x1536 : 0 < S3072x1536.numel
  shapeCasts_S3072x1536_S3072x1536 : S3072x1536.ShapeCasts S3072x1536
  inb_S1x1536_S1x1536_0_0 : ∀ a, (![0, 0] : Fin 2 → Nat) a + S1x1536.size a ≤ S1x1536.size a
  h_S1x1536 : 0 < S1x1536.numel
  shapeCasts_S1x1536_S1x1536 : S1x1536.ShapeCasts S1x1536
  broadcasts_S1x1536_S512x1536 : S1x1536.Broadcasts S512x1536
  inb_S512x1536_S512x1536_0_0 : ∀ a, (![0, 0] : Fin 2 → Nat) a + S512x1536.size a ≤ S512x1536.size a
  h_S512x1536 : 0 < S512x1536.numel
  dot_S512x3072_S3072x1536_S512x1536_1_0_0_1_n_n_wf : DotDims.WF S512x3072 S3072x1536 S512x1536 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x3072.size a ≤ S8192x3072.size a
  hwx0_0 : ∀ i : grid0.Coords, EltTy.bits .f32 = 32 ∨ (Rect.block (s := S8192x3072) S512x3072.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S3072x1536.size a ≤ S3072x1536.size a
  hwx0_1 : ∀ i : grid0.Coords, EltTy.bits .bf16 = 32 ∨ (Rect.block (s := S3072x1536) S3072x1536.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1536.size a ≤ S1x1536.size a
  hwx0_2 : ∀ i : grid0.Coords, EltTy.bits .f32 = 32 ∨ (Rect.block (s := S1x1536) S1x1536.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x1536.size a ≤ S8192x1536.size a
  hwx0_3 : ∀ i : grid0.Coords, EltTy.bits .f32 = 32 ∨ (Rect.block (s := S8192x1536) S512x1536.size (cc0_transform_3 i) (hinb0_3 i)).WholeWords (EltTy.packing .f32)

variable [Facts₀]

def dot_S512x3072_S3072x1536_S512x1536_1_0_0_1_n_n : DotDims S512x3072 S3072x1536 S512x1536 where
  lhsContracting := [1]
  rhsContracting := [0]
  lhsNonContracting := [0]
  rhsNonContracting := [1]
  lhsBatch := []
  rhsBatch := []
  wf := dot_S512x3072_S3072x1536_S512x1536_1_0_0_1_n_n_wf

abbrev win0_0 : Pipeline.Window sig grid0 :=
  Pipeline.Window.ofSpec (Memref.whole main_arg0) S512x3072.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S3072x1536.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x1536.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S512x1536.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8192x3072 : Shape := ⟨2, ![8192, 3072]⟩
abbrev S3072x1536 : Shape := ⟨2, ![3072, 1536]⟩
abbrev S1536 : Shape := ⟨1, ![1536]⟩
abbrev S1536x3072 : Shape := ⟨2, ![1536, 3072]⟩
abbrev S8192x1536 : Shape := ⟨2, ![8192, 1536]⟩
abbrev S1x1536 : Shape := ⟨2, ![1, 1536]⟩

abbrev nBuf : Space → Nat
  | .hbm => 10
  | .vmem => 0
  | .smem => 0
  | _ => 0

abbrev bufTy : (tb : Table) → Fin (tcTables nBuf tb) → BufTy
  | .hbm, ⟨0, _⟩ => ⟨S8192x3072, .f32⟩
  | .hbm, ⟨1, _⟩ => ⟨S3072x1536, .f32⟩
  | .hbm, ⟨2, _⟩ => ⟨S1536, .f32⟩
  | .hbm, ⟨3, _⟩ => ⟨S1536x3072, .f32⟩
  | .hbm, ⟨4, _⟩ => ⟨S3072x1536, .f32⟩
  | .hbm, ⟨5, _⟩ => ⟨S3072x1536, .f32⟩
  | .hbm, ⟨6, _⟩ => ⟨S8192x1536, .f32⟩
  | .hbm, ⟨7, _⟩ => ⟨S1x1536, .f32⟩
  | .hbm, ⟨8, _⟩ => ⟨S8192x1536, .f32⟩
  | .hbm, ⟨9, _⟩ => ⟨S8192x1536, .f32⟩
  | _, _ => ⟨S8192x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]

class Facts₀ : Prop where
  transposes_S1536x3072_S3072x1536_1_0 : S1536x3072.Transposes [1, 0] S3072x1536
  bcast_S1536_S1x1536_1 : S1536.BroadcastsInDim S1x1536 (![1] : Fin 1 → Fin S1x1536.rank)
  bcast_S1x1536_S8192x1536_0_1 : S1x1536.BroadcastsInDim S8192x1536 (![0, 1] : Fin 2 → Fin S8192x1536.rank)
  dot_S8192x3072_S3072x1536_S8192x1536_1_0_0_1_n_n_wf : DotDims.WF S8192x3072 S3072x1536 S8192x1536 [1] [0] [0] [1] [] []

variable [Facts₀]

def dot_S8192x3072_S3072x1536_S8192x1536_1_0_0_1_n_n : DotDims S8192x3072 S3072x1536 S8192x1536 where
  lhsContracting := [1]
  rhsContracting := [0]
  lhsNonContracting := [0]
  rhsNonContracting := [1]
  lhsBatch := []
  rhsBatch := []
  wf := dot_S8192x3072_S3072x1536_S8192x1536_1_0_0_1_n_n_wf

class Facts : Prop extends Facts₀ where

variable [Facts]
-- ==== Proof.LibDotEntry.lean ====
/-
  A matrix product read at an entry, on the host and on the TensorCore. At exact arithmetic the host's `dot_general` of an m×K matrix by a K×n
  matrix, whose dimension numbers contract the left factor's columns against the right factor's rows, has at entry
  (p, q) the sum over k of left (p, k) · right (k, q) — the same sum a TensorCore matrix product into a zero
  accumulator has there. Stated for any dimension record of these three shapes, given where it sends an output index
  and a contraction index.
-/
import Idealize.ShloMosaic.Lib.ValueIdx
import Idealize.ShloMosaic.PureOps.Ideal.Laws

noncomputable section

namespace Cert.Lib.DotEntry

open Idealize.ShloMosaic Idealize.ShloMosaic.TcCoe Idealize.SL.Sem Idealize.ShloMosaic.ValueIdx

/-- The host's product of an m×K by a K×n matrix, read at entry (p, q), is the sum over the one contracted axis of
    the products of row p of the left factor with column q of the right factor. The four hypotheses say where the
    product's dimension numbers send an output index and a contraction index: to (row, k) on the left and
    (k, column) on the right. -/
theorem dotGeneral_ix2 {m K n : Nat} (D : DotDims ⟨2, ![m, K]⟩ ⟨2, ![K, n]⟩ ⟨2, ![m, n]⟩)
    (hr : D.contr.rank = 1) (hs : D.contr.size ⟨0, by omega⟩ = K)
    (hl0 : ∀ (i : (⟨2, ![m, n]⟩ : Shape).Idx) (c : D.contr.Idx), (D.lhsIdx i c 0).val = (i 0).val)
    (hl1 : ∀ (i : (⟨2, ![m, n]⟩ : Shape).Idx) (c : D.contr.Idx), (D.lhsIdx i c 1).val = (c ⟨0, by omega⟩).val)
    (hr0 : ∀ (i : (⟨2, ![m, n]⟩ : Shape).Idx) (c : D.contr.Idx), (D.rhsIdx i c 0).val = (c ⟨0, by omega⟩).val)
    (hr1 : ∀ (i : (⟨2, ![m, n]⟩ : Shape).Idx) (c : D.contr.Idx), (D.rhsIdx i c 1).val = (i 1).val)
    (lhs : FVec Ideal ⟨2, ![m, K]⟩ .f32) (rhs : FVec Ideal ⟨2, ![K, n]⟩ .f32) (p : Fin m) (q : Fin n) :
    Host.dotGeneral (F := Ideal) D none lhs rhs (ix2 p q) = ∑ k : Fin K, lhs (ix2 p k) * rhs (ix2 k q) := by
  simp only [Host.dotGeneral]
  rw [Ideal.dotGeneral_apply, ← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun a => Fin.ext (by
    match a with
    | ⟨0, _⟩ => exact hl0 _ _
    | ⟨1, _⟩ => exact (hl1 _ _).trans hk)
  have er : D.rhsIdx (ix2 p q) ((contrEquiv1 D K hr hs).symm k) = ix2 k q := funext fun a => Fin.ext (by
    match a with
    | ⟨0, _⟩ => exact (hr0 _ _).trans hk
    | ⟨1, _⟩ => exact hr1 _ _)
  rw [el, er]

/-- A TensorCore product of an m×K by a K×n matrix (of any two float formats: at exact arithmetic a format is only a
    label) into a zero accumulator, read at entry (p, q), is the same sum. -/
theorem matmul_zero_ix2 {m K n : Nat} {φ₁ φ₂ : FTy} (D : DotDims ⟨2, ![m, K]⟩ ⟨2, ![K, n]⟩ ⟨2, ![m, n]⟩)
    (hr : D.contr.rank = 1) (hs : D.contr.size ⟨0, by omega⟩ = K)
    (hl0 : ∀ (i : (⟨2, ![m, n]⟩ : Shape).Idx) (c : D.contr.Idx), (D.lhsIdx i c 0).val = (i 0).val)
    (hl1 : ∀ (i : (⟨2, ![m, n]⟩ : Shape).Idx) (c : D.contr.Idx), (D.lhsIdx i c 1).val = (c ⟨0, by omega⟩).val)
    (hr0 : ∀ (i : (⟨2, ![m, n]⟩ : Shape).Idx) (c : D.contr.Idx), (D.rhsIdx i c 0).val = (c ⟨0, by omega⟩).val)
    (hr1 : ∀ (i : (⟨2, ![m, n]⟩ : Shape).Idx) (c : D.contr.Idx), (D.rhsIdx i c 1).val = (i 1).val)
    (lhs : FVec Ideal ⟨2, ![m, K]⟩ φ₁) (rhs : FVec Ideal ⟨2, ![K, n]⟩ φ₂) (p : Fin m) (q : Fin n) :
    matmul D none lhs rhs (constant (F := Ideal) ⟨2, ![m, n]⟩ .f32 0x00000000#32) (ix2 p q)
      = ∑ k : Fin K, lhs (ix2 p k) * rhs (ix2 k q) := by
  refine (Ideal.matmul_constant_zero_apply D none lhs rhs (ix2 p q)).trans ?_
  rw [← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun a => Fin.ext (by
    match a with
    | ⟨0, _⟩ => exact hl0 _ _
    | ⟨1, _⟩ => exact (hl1 _ _).trans hk)
  have er : D.rhsIdx (ix2 p q) ((contrEquiv1 D K hr hs).symm k) = ix2 k q := funext fun a => Fin.ext (by
    match a with
    | ⟨0, _⟩ => exact (hr0 _ _).trans hk
    | ⟨1, _⟩ => exact hr1 _ _)
  rw [el, er]

end Cert.Lib.DotEntry

end
-- ==== Proof.KernelBody.lean ====
/-
  What the kernel body stores, entry by entry.

  At a grid point the body holds a block of 512 rows of `x`, the whole scaled weight matrix (3072 × 1536) and the
  bias as one row. It multiplies the block by the weights into a zero accumulator and adds the bias row to every
  row of the product. At exact arithmetic the narrowing of the block to the shorter float format changes nothing, so
  the stored value at row r and column q of the block is

      ∑ over k of  block (r, k) · weights (k, q)   +   bias row (0, q).
-/
import proofs.«144011_j25434796327645_2_alg».proof.Proof.Gen.KernelIdeal.Skeleton
import proofs.«144011_j25434796327645_2_alg».proof.Proof.LibDotEntry
import Idealize.ShloMosaic.Lib.Pipeline.Value
import Idealize.ShloMosaic.Lib.ValueIdx
import Idealize.ShloMosaic.PureOps.Ideal.Laws

noncomputable section

namespace Cert.KernelIdeal.Body

open Cert.KernelIdeal Cert.KernelIdeal.Gen Idealize.ShloMosaic Idealize.ShloMosaic.TcCoe Idealize.ShloMosaic.ValueIdx

/-! ## Where the body's matrix product reads its two factors -/

/-- Left factor, first coordinate: the output's row. -/
theorem lhs_row (i : S512x1536.Idx) (c : dot_S512x3072_S3072x1536_S512x1536_1_0_0_1_n_n.contr.Idx) :
    (dot_S512x3072_S3072x1536_S512x1536_1_0_0_1_n_n.lhsIdx i c 0).val = (i 0).val := by
  unfold DotDims.lhsIdx
  rw [dif_neg (show ¬(0 : Fin S512x3072.rank) ∈ dot_S512x3072_S3072x1536_S512x1536_1_0_0_1_n_n.lhsBatch by decide),
    dif_pos (show (0 : Fin S512x3072.rank) ∈ dot_S512x3072_S3072x1536_S512x1536_1_0_0_1_n_n.lhsNonContracting by decide)]
  rfl

/-- Left factor, second coordinate: the contracted position. -/
theorem lhs_contr (i : S512x1536.Idx) (c : dot_S512x3072_S3072x1536_S512x1536_1_0_0_1_n_n.contr.Idx) :
    (dot_S512x3072_S3072x1536_S512x1536_1_0_0_1_n_n.lhsIdx i c 1).val = (c ⟨0, by decide⟩).val :=
  dot_S512x3072_S3072x1536_S512x1536_1_0_0_1_n_n.lhsIdx_val_of_single rfl i c

/-- Right factor, first coordinate: the contracted position. -/
theorem rhs_contr (i : S512x1536.Idx) (c : dot_S512x3072_S3072x1536_S512x1536_1_0_0_1_n_n.contr.Idx) :
    (dot_S512x3072_S3072x1536_S512x1536_1_0_0_1_n_n.rhsIdx i c 0).val = (c ⟨0, by decide⟩).val :=
  dot_S512x3072_S3072x1536_S512x1536_1_0_0_1_n_n.rhsIdx_val_of_single rfl i c

/-- Right factor, second coordinate: the output's column. -/
theorem rhs_col (i : S512x1536.Idx) (c : dot_S512x3072_S3072x1536_S512x1536_1_0_0_1_n_n.contr.Idx) :
    (dot_S512x3072_S3072x1536_S512x1536_1_0_0_1_n_n.rhsIdx i c 1).val = (i 1).val := by
  unfold DotDims.rhsIdx
  rw [dif_neg (show ¬(1 : Fin S3072x1536.rank) ∈ dot_S512x3072_S3072x1536_S512x1536_1_0_0_1_n_n.rhsBatch by decide),
    dif_pos (show (1 : Fin S3072x1536.rank) ∈ dot_S512x3072_S3072x1536_S512x1536_1_0_0_1_n_n.rhsNonContracting by decide)]
  rfl

/-! ## The stored value at an entry -/

/-- The bias row repeated down the block, read at (r, q), is the row's entry q. -/
theorem bias_rows (v5 : Vec Ideal S1x1536 .f32) (r : Fin 512) (q : Fin 1536) :
    broadcastTo S512x1536 v5 broadcasts_S1x1536_S512x1536 (ix2 r q) = v5 (ix2 (0 : Fin 1) q) :=
  broadcastTo_apply v5 broadcasts_S1x1536_S512x1536 (ix2 r q) (ix2 (0 : Fin 1) q) (fun a => by
    match a with
    | ⟨0, _⟩ => show 0 = if (1 : Nat) = 1 then 0 else _; rw [if_pos rfl]
    | ⟨1, _⟩ => show q.val = if (1536 : Nat) = 1 then 0 else q.val; rw [if_neg (by decide)])

/-- The body's stored value at row r, column q of the block. -/
theorem stored_apply (v0 : Vec Ideal S512x3072 .f32) (v2 : Vec Ideal S3072x1536 .bf16) (v5 : Vec Ideal S1x1536 .f32)
    (r : Fin 512) (q : Fin 1536) :
    k0_pay1 (F := Ideal) v0 v2 v5 (ix2 r q) = (∑ k : Fin 3072, v0 (ix2 r k) * v2 (ix2 k q)) + v5 (ix2 (0 : Fin 1) q) := by
  unfold k0_pay1
  rw [shapeCast_self, shapeCast_self]
  show matmul dot_S512x3072_S3072x1536_S512x1536_1_0_0_1_n_n none (truncf .bf16 v0 bitsLt_bf16_f32) v2
        (constant (F := Ideal) S512x1536 .f32 0x00000000#32) (ix2 r q)
      + broadcastTo S512x1536 v5 broadcasts_S1x1536_S512x1536 (ix2 r q) = _
  rw [bias_rows, Cert.Lib.DotEntry.matmul_zero_ix2 dot_S512x3072_S3072x1536_S512x1536_1_0_0_1_n_n rfl rfl
    lhs_row lhs_contr rhs_contr rhs_col]
  rfl

end Cert.KernelIdeal.Body

end
-- ==== Proof.MaskedLinear.lean ====
/-
  The masked linear map, entry by entry, on the extended reals.

  For a batch `x` of 8192 rows of length 3072, a weight matrix `w` of 3072 × 1536, a bias `b` of length 1536 and a
  mask of 1536 × 3072, the result at row p and column q is

      ∑ over k of  x (p, k) · (mask (q, k) · w (k, q))   +   b q.

  The mask enters transposed: weight entry (k, q) is scaled by mask entry (q, k). Both programs of this certificate
  compute exactly this sum, the factors in this order, so nothing below needs the inputs to be finite.
-/
import Idealize.ShloMosaic.Lib.ValueIdx
import Idealize.ShloMosaic.PureOps.Ideal

noncomputable section

namespace Cert.MaskedLinear

open Idealize.ShloMosaic Idealize.ShloMosaic.ValueIdx

/-- Entry (p, q) of the masked linear map: row p of `x` against column q of the weights, each weight scaled by the
    transposed mask's entry, plus the bias of column q. -/
def entry (x : FVec Ideal ⟨2, ![8192, 3072]⟩ .f32) (w : FVec Ideal ⟨2, ![3072, 1536]⟩ .f32)
    (b : FVec Ideal ⟨1, ![1536]⟩ .f32) (mask : FVec Ideal ⟨2, ![1536, 3072]⟩ .f32) (p : Fin 8192) (q : Fin 1536) : EReal :=
  (∑ k : Fin 3072, x (ix2 p k) * (mask (ix2 q k) * w (ix2 k q))) + b (ix1 q)

/-- The whole result array: `entry` at the two coordinates of the index. -/
def result (x : FVec Ideal ⟨2, ![8192, 3072]⟩ .f32) (w : FVec Ideal ⟨2, ![3072, 1536]⟩ .f32)
    (b : FVec Ideal ⟨1, ![1536]⟩ .f32) (mask : FVec Ideal ⟨2, ![1536, 3072]⟩ .f32) : FVec Ideal ⟨2, ![8192, 1536]⟩ .f32 :=
  fun i => entry x w b mask (i 0) (i 1)

theorem result_apply (x : FVec Ideal ⟨2, ![8192, 3072]⟩ .f32) (w : FVec Ideal ⟨2, ![3072, 1536]⟩ .f32)
    (b : FVec Ideal ⟨1, ![1536]⟩ .f32) (mask : FVec Ideal ⟨2, ![1536, 3072]⟩ .f32) (p : Fin 8192) (q : Fin 1536) :
    result x w b mask (ix2 p q) = entry x w b mask p q := rfl

end Cert.MaskedLinear

end
-- ==== Proof.KernelBlocks.lean ====
/-
  The blocks the kernel body sees at a grid point, as entries of the four arguments.

  The grid has 16 points. At point t the body is given rows 512·t … 512·t + 511 of `x` (all 3072 columns), the whole
  scaled weight matrix, and the bias as one row. The scaled weight matrix was written before the region by the host:
  the mask transposed, multiplied entrywise into `w`, then narrowed to the shorter float format (no change at exact
  arithmetic), so its entry (k, q) is mask (q, k) · w (k, q). The bias row is `b` laid out as 1 × 1536, so its entry
  (0, q) is b q. Hence what the body stores at row r, column q of its block is the masked linear map's entry at
  row 512·t + r, column q.
-/
import proofs.«144011_j25434796327645_2_alg».proof.Proof.Gen.KernelIdeal.Value
import proofs.«144011_j25434796327645_2_alg».proof.Proof.KernelBody
import proofs.«144011_j25434796327645_2_alg».proof.Proof.MaskedLinear
import Idealize.ShloMosaic.Lib.Pipeline.Value
import Idealize.ShloMosaic.Lib.ValueLayout
import Idealize.ShloMosaic.Lib.StableHlo.Run
import Idealize.ShloMosaic.Lib.Tactic

noncomputable section

namespace Cert.KernelIdeal.Blocks

open Cert.KernelIdeal Cert.KernelIdeal.Gen Cert.KernelIdeal.Value
open Idealize.ShloMosaic Idealize.ShloMosaic.TcCoe Idealize.SL.Sem Idealize.ShloMosaic.StableHlo Idealize.ShloMosaic.ValueIdx

variable (m : (ℓ : Loc nD τ sig) → Buf (Elt Ideal) ℓ)

/-! ## The arrays, named -/

/-- The four arguments as launched on core `c`, and the two arrays the host writes before the region. -/
abbrev xArr (c : Dev nD) : FVec Ideal S8192x3072 .f32 := m ((c : Thread nD τ).loc main_arg0)
abbrev wArr (c : Dev nD) : FVec Ideal S3072x1536 .f32 := m ((c : Thread nD τ).loc main_arg1)
abbrev bArr (c : Dev nD) : FVec Ideal S1536 .f32 := m ((c : Thread nD τ).loc main_arg2)
abbrev maskArr (c : Dev nD) : FVec Ideal S1536x3072 .f32 := m ((c : Thread nD τ).loc main_arg3)
abbrev scaledW (c : Dev nD) : FVec Ideal S3072x1536 .bf16 := V m c main_v2
abbrev biasRow (c : Dev nD) : FVec Ideal S1x1536 .f32 := V m c main_v3

/-! ## The two arrays the host writes before the region -/

/-- Entry (k, q) of the scaled weights: the mask's entry (q, k) times the weight's entry (k, q). -/
theorem weights_entry (c : Dev nD) (k : Fin 3072) (q : Fin 1536) :
    scaledW m c (ix2 k q) = maskArr m c (ix2 q k) * wArr m c (ix2 k q) := by
  have e : scaledW m c
      = truncf .bf16 (mulf (transpose S3072x1536 [1, 0] (maskArr m c) transposes_S1536x3072_S3072x1536_1_0) (wArr m c)) bitsLt_bf16_f32 := by
    dsimp only [scaledW, maskArr, wArr, V, hostOps0]; after_results
  rw [e]
  show transpose S3072x1536 [1, 0] (maskArr m c) transposes_S1536x3072_S3072x1536_1_0 (ix2 k q) * wArr m c (ix2 k q) = _
  rw [transpose_ix2_apply]

/-- Entry (0, q) of the bias row: the bias's entry q. -/
theorem bias_entry (c : Dev nD) (q : Fin 1536) :
    biasRow m c (ix2 (0 : Fin 1) q) = bArr m c (ix1 q) := by
  have e : biasRow m c = shapeCast S1x1536 (bArr m c) shapeCasts_S1536_S1x1536 := by
    dsimp only [biasRow, bArr, V, hostOps0]; after_results; rfl
  rw [e, shapeCast_a_1a_apply]

/-! ## Which block each window gives the body at a point -/

/-- The windows' block indices, decided over the 16 points: the blocks of `x` and of the result move down with the
    point; the weights and the bias row are always block (0, 0). -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Row r, column k of the block of `x` at point t is row 512·t + r, column k of `x`. -/
theorem x_block_entry (c : Dev nD) (t : Fin cfg0.N) (r : Fin 512) (k : Fin 3072) (p : Fin 8192)
    (hp : p.val = 512 * t.val + r.val) :
    (iblk m c 0 t : Vec Ideal S512x3072 .f32) (ix2 r k) = xArr m c (ix2 p k) := by
  obtain ⟨e0, e1, -⟩ := idx_facts t
  unfold iblk
  rw [View.read_apply]
  show V m c main_arg0 _ = _
  rw [V_main_arg0]
  refine congrArg (xArr m c) (funext fun a => Fin.ext ?_)
  match a with
  | ⟨0, _⟩ => show win0_0.index t (0 : Fin 2) * 512 + 1 * r.val = p.val; rw [e0, hp]; omega
  | ⟨1, _⟩ => show win0_0.index t (1 : Fin 2) * 3072 + 1 * k.val = k.val; rw [e1]; omega

/-- The block of the scaled weights at any point is the whole matrix. -/
theorem w_block_entry (c : Dev nD) (t : Fin cfg0.N) (k : Fin 3072) (q : Fin 1536) :
    (iblk m c 1 t : Vec Ideal S3072x1536 .bf16) (ix2 k q) = scaledW m c (ix2 k q) := by
  obtain ⟨-, -, e2, e3, -⟩ := idx_facts t
  unfold iblk
  rw [View.read_apply]
  show V m c main_v2 _ = _
  refine congrArg (scaledW m c) (funext fun a => Fin.ext ?_)
  match a with
  | ⟨0, _⟩ => show win0_1.index t (0 : Fin 2) * 3072 + 1 * k.val = k.val; rw [e2]; omega
  | ⟨1, _⟩ => show win0_1.index t (1 : Fin 2) * 1536 + 1 * q.val = q.val; rw [e3]; omega

/-- The block of the bias row at any point is the whole row. -/
theorem b_block_entry (c : Dev nD) (t : Fin cfg0.N) (q : Fin 1536) :
    (iblk m c 2 t : Vec Ideal S1x1536 .f32) (ix2 (0 : Fin 1) q) = biasRow m c (ix2 (0 : Fin 1) q) := by
  obtain ⟨-, -, -, -, e4, e5, -⟩ := idx_facts t
  unfold iblk
  rw [View.read_apply]
  show V m c main_v3 _ = _
  refine congrArg (biasRow m c) (funext fun a => Fin.ext ?_)
  match a with
  | ⟨0, _⟩ => show win0_2.index t (0 : Fin 2) * 1 + 1 * 0 = 0; rw [e4]
  | ⟨1, _⟩ => show win0_2.index t (1 : Fin 2) * 1536 + 1 * q.val = q.val; rw [e5]; omega

/-! ## What the body stores at a point -/

/-- At point t the body's stored value at row r, column q of its block is the masked linear map's entry at
    row 512·t + r, column q. -/
theorem stored_entry (c : Dev nD) (t : Fin cfg0.N) (r : Fin 512) (q : Fin 1536) (p : Fin 8192)
    (hp : p.val = 512 * t.val + r.val) :
    k0_pay1 (F := Ideal) (iblk m c 0 t) (iblk m c 1 t) (iblk m c 2 t) (ix2 r q)
      = Cert.MaskedLinear.entry (xArr m c) (wArr m c) (bArr m c) (maskArr m c) p q := by
  refine (Cert.KernelIdeal.Body.stored_apply (iblk m c 0 t) (iblk m c 1 t) (iblk m c 2 t) r q).trans ?_
  unfold Cert.MaskedLinear.entry
  refine congrArg₂ (· + ·) (Finset.sum_congr rfl fun k _ => ?_) ((b_block_entry m c t q).trans (bias_entry m c q))
  exact congrArg₂ (· * ·) (x_block_entry m c t r k p hp) ((w_block_entry m c t k q).trans (weights_entry m c k q))

end Cert.KernelIdeal.Blocks

end
-- ==== Proof.KernelValue.lean ====
/-
  The kernel's result array is the masked linear map.

  Point t of the 16-point grid writes back rows 512·t … 512·t + 511 of the result, all 1536 columns, and what it writes
  there is the masked linear map's entries at those rows. Row p of the result lies in the block of point p / 512, so the
  16 blocks together cover the whole 8192 × 1536 array: after the run the array holds the map at every index.
-/
import proofs.«144011_j25434796327645_2_alg».proof.Proof.KernelBlocks

noncomputable section

namespace Cert.KernelIdeal.Whole

open Cert.KernelIdeal Cert.KernelIdeal.Gen Cert.KernelIdeal.Value Cert.KernelIdeal.Blocks
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- The masked linear map of the four arguments as launched on core `c`. -/
abbrev target (c : Dev nD) : FVec Ideal S8192x1536 .f32 :=
  Cert.MaskedLinear.result (xArr m c) (wArr m c) (bArr m c) (maskArr m c)

theorem origin : (![0, 0] : Fin 2 → Nat) = fun _ => 0 := funext fun a => by fin_cases a <;> rfl

/-- What point t writes back is block t of the masked linear map. -/
theorem written_eq (c : Dev nD) (t : Fin cfg0.N) :
    (dats m 0 c).flushed 3 t = ((cfg0.win 3).blk t).view.read (Elt Ideal) (target m c) := by
  rw [flushed3]
  unfold out0_3
  rw [View.canon_unit_zero origin]
  simp only [View.ld_unit_zero (S := S512x3072) origin, View.ld_unit_zero (S := S3072x1536) origin,
    View.ld_unit_zero (S := S1x1536) origin]
  obtain ⟨-, -, -, -, -, -, e6, e7⟩ := idx_facts t
  funext j
  obtain ⟨r, q, rfl⟩ : ∃ (r : Fin 512) (q : Fin 1536), j = ix2 r q := ⟨j 0, j 1, eq_ix2 j⟩
  have hlt : 512 * t.val + r.val < 8192 := by
    have ht : t.val < 16 := Nat.lt_of_lt_of_eq t.isLt (N_0 : cfg0.N = 16)
    have := r.isLt; omega
  show k0_pay1 (F := Ideal) (iblk m c 0 t) (iblk m c 1 t) (iblk m c 2 t) (ix2 r q)
      = target m c (((cfg0.win 3).blk t).view.emb (ix2 r q))
  have hemb : ((cfg0.win 3).blk t).view.emb (ix2 r q) = ix2 (⟨512 * t.val + r.val, hlt⟩ : Fin 8192) q := by
    funext a; apply Fin.ext
    match a with
    | ⟨0, _⟩ => show win0_3.index t (0 : Fin 2) * 512 + 1 * r.val = 512 * t.val + r.val; rw [e6]; omega
    | ⟨1, _⟩ => show win0_3.index t (1 : Fin 2) * 1536 + 1 * q.val = q.val; rw [e7]; omega
  rw [hemb]
  exact stored_entry m c t r q ⟨512 * t.val + r.val, hlt⟩ rfl

/-- An index of the result is in point t's block iff each coordinate is in the block's range on its axis. -/
theorem mem_block (t : Fin cfg0.N) (i : S8192x1536.Idx) :
    i ∈ ((cfg0.win 3).blk t).view.set ↔ ∀ a : Fin 2, win0_3.index t a * S512x1536.size a ≤ (i a).val
      ∧ (i a).val < win0_3.index t a * S512x1536.size a + S512x1536.size a := by
  show i ∈ ((View.whole main_v4).slice (win0_3.rect t)).set ↔ _
  rw [View.set_slice_whole, Rect.mem_set_unit]
  exact Iff.rfl

/-- Every index of the result is in some point's block: row p is in the block of point p / 512. -/
theorem covered (i : S8192x1536.Idx) :
    ∃ t : Fin cfg0.N, (cfg0.win 3).flush t = true ∧ i ∈ ((cfg0.win 3).blk t).view.set := by
  have hi0 : (i 0).val < 8192 := (i 0).isLt
  have hi1 : (i 1).val < 1536 := (i 1).isLt
  obtain ⟨t, ht⟩ : ∃ t : Fin cfg0.N, t.val = (i 0).val / 512 :=
    ⟨⟨(i 0).val / 512, by rw [show cfg0.N = 16 from N_0]; omega⟩, rfl⟩
  obtain ⟨-, -, -, -, -, -, e6, e7⟩ := idx_facts t
  refine ⟨t, flush0_3 t, ?_⟩
  rw [mem_block]
  intro a
  match a with
  | ⟨0, _⟩ =>
    show win0_3.index t (0 : Fin 2) * 512 ≤ (i 0).val ∧ (i 0).val < win0_3.index t (0 : Fin 2) * 512 + 512
    rw [e6, ht]; omega
  | ⟨1, _⟩ =>
    show win0_3.index t (1 : Fin 2) * 1536 ≤ (i 1).val ∧ (i 1).val < win0_3.index t (1 : Fin 2) * 1536 + 1536
    rw [e7]; omega

/-- After the run the result array holds the masked linear map. -/
theorem whole_eq (c : Dev nD) : (dats m 0 c).arrAt 3 cfg0.N = target m c :=
  (dats m 0 c).arrAt_eq_of_cover 3 (target m c) (fun t _ => written_eq m c t) covered

/-- The kernel's run with its result named: the masked linear map of the arguments, the arguments unchanged. -/
theorem run : θ_run defs (onTc (τ := τ) (main (F := Ideal))) ⟨m, fun _ => 0, ρ⟩ fun r => ∀ c : Dev nD,
      r.2.mem ((c : Thread nD τ).loc main_v4) = target m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (whole_eq m c), (h c).2⟩) (run_blocks m ρ)

end Cert.KernelIdeal.Whole

end
-- ==== Proof.ReferenceValue.lean ====
/-
  The reference computes the masked linear map.

  Its six host operations are: transpose the mask; multiply it entrywise into the weights; the matrix product of
  `x` with that; the bias laid out as one row, then repeated down all 8192 rows; the sum of the two. Read at an index
  (p, q): the product is the sum over k of x (p, k) times the scaled weight (k, q), the scaled weight (k, q) is
  mask (q, k) · w (k, q) because the transpose swaps the two coordinates, and the repeated bias at (p, q) is b q.
-/
import proofs.«144011_j25434796327645_2_alg».proof.Proof.Gen.ReferenceIdeal.Read
import proofs.«144011_j25434796327645_2_alg».proof.Proof.MaskedLinear

noncomputable section

namespace Cert.ReferenceIdeal.RefValue

open Cert.ReferenceIdeal Cert.ReferenceIdeal.Read Idealize.ShloMosaic Idealize.ShloMosaic.TcCoe Idealize.ShloMosaic.ValueIdx

/-- The last stage of the reference, as a function of the four argument arrays, is the masked linear map. -/
theorem stage_eq (x0 : FVec Ideal S8192x3072 .f32) (x1 : FVec Ideal S3072x1536 .f32) (x2 : FVec Ideal S1536 .f32)
    (x3 : FVec Ideal S1536x3072 .f32) :
    val_main_v5 (F := Ideal) x0 x1 x2 x3 = Cert.MaskedLinear.result x0 x1 x2 x3 := by
  funext i
  obtain ⟨p, q, rfl⟩ : ∃ (p : Fin 8192) (q : Fin 1536), i = ix2 p q := ⟨i 0, i 1, eq_ix2 i⟩
  rw [val_main_v5_apply, val_main_v2_apply, val_main_v4_apply, val_main_v3_apply]
  -- the row of `x`, the column of the scaled weights, and the bias entry, each at explicit coordinates
  have el : ∀ k : Fin 3072, lidx_main_v2 (ix2 p q) k = ix2 p k := fun k => funext fun a => Fin.ext (by
    match a with | ⟨0, _⟩ => rfl | ⟨1, _⟩ => rfl)
  have er : ∀ k : Fin 3072, ridx_main_v2 (ix2 p q) k = ix2 k q := fun k => funext fun a => Fin.ext (by
    match a with | ⟨0, _⟩ => rfl | ⟨1, _⟩ => rfl)
  have et : ∀ k : Fin 3072, idx_main_v0 (ix2 k q) = ix2 q k := fun k => funext fun a => Fin.ext (by
    match a with | ⟨0, _⟩ => rfl | ⟨1, _⟩ => rfl)
  have eb : idx_main_v3 (idx_main_v4 (ix2 p q)) = ix1 q := funext fun a => Fin.ext (by
    match a with | ⟨0, _⟩ => rfl)
  show (∑ k : Fin 3072, x0 (lidx_main_v2 (ix2 p q) k) * val_main_v1 (F := Ideal) x1 x3 (ridx_main_v2 (ix2 p q) k))
        + x2 (idx_main_v3 (idx_main_v4 (ix2 p q)))
      = (∑ k : Fin 3072, x0 (ix2 p k) * (x3 (ix2 q k) * x1 (ix2 k q))) + x2 (ix1 q)
  rw [eb]
  refine congrArg (· + x2 (ix1 q)) (Finset.sum_congr rfl fun k _ => ?_)
  rw [el, er, val_main_v1_apply, val_main_v0_apply, et]
  rfl

end Cert.ReferenceIdeal.RefValue

end
-- ==== Proof.lean ====
/-
  A masked linear layer, tiled over its batch, against the plain formula.

  The reference computes  x · (maskᵀ ∘ w) + b  in one piece: it transposes the mask, multiplies it entrywise into the
  weights, takes the matrix product with the batch `x` and adds the bias to every row. The kernel prepares the same
  scaled weights and the bias as a row on the host, then walks the batch in 16 blocks of 512 rows; on each block it
  multiplies by the scaled weights into a zero accumulator and adds the bias row. It narrows the block and the scaled
  weights to a shorter float format first, which at exact arithmetic changes nothing.

  On the extended reals both results are, at row p and column q,

      ∑ over k of  x (p, k) · (mask (q, k) · w (k, q))   +   b q,

  the same factors in the same order on both sides, so the two arrays are equal term by term and the finiteness of
  the inputs is never used. The kernel side is read block by block: point t writes rows 512·t … 512·t + 511, and the
  16 blocks cover the array. The idealization rewrote no operation of the kernel, so there is nothing to preserve.
-/
import proofs.«144011_j25434796327645_2_alg».proof.Defs
import proofs.«144011_j25434796327645_2_alg».proof.Proof.Gen.Kernel
import proofs.«144011_j25434796327645_2_alg».proof.Proof.Gen.Kernel.Skeleton
import proofs.«144011_j25434796327645_2_alg».proof.Proof.Gen.Kernel.Launch
import proofs.«144011_j25434796327645_2_alg».proof.Proof.Gen.Kernel.Points
import proofs.«144011_j25434796327645_2_alg».proof.Proof.Gen.Kernel.Frame
import proofs.«144011_j25434796327645_2_alg».proof.Proof.Gen.KernelIdeal
import proofs.«144011_j25434796327645_2_alg».proof.Proof.Gen.KernelIdeal.Skeleton
import proofs.«144011_j25434796327645_2_alg».proof.Proof.Gen.KernelIdeal.Launch
import proofs.«144011_j25434796327645_2_alg».proof.Proof.Gen.KernelIdeal.Points
import proofs.«144011_j25434796327645_2_alg».proof.Proof.Gen.KernelIdeal.Frame
import proofs.«144011_j25434796327645_2_alg».proof.Proof.Gen.ReferenceIdeal
import proofs.«144011_j25434796327645_2_alg».proof.Proof.Gen.Pre_finite_inputs
import proofs.«144011_j25434796327645_2_alg».proof.Proof.Gen.KernelIdeal.Value
import proofs.«144011_j25434796327645_2_alg».proof.Proof.Gen.ReferenceIdeal.Run
import proofs.«144011_j25434796327645_2_alg».proof.Proof.Gen.ReferenceIdeal.Read
import proofs.«144011_j25434796327645_2_alg».proof.Proof.KernelValue
import proofs.«144011_j25434796327645_2_alg».proof.Proof.ReferenceValue
import Idealize.ShloMosaic.Adequacy
import Idealize.ShloMosaic.Init

noncomputable section

namespace Cert.Proof

open Idealize.ShloMosaic Idealize.ShloMosaic.TcCoe Idealize.SL.Sem

/-- The kernel as printed runs to the end and leaves its four arguments as they were. -/
theorem frame_kernel : Cert.frame_Kernel := fun m ρ _ => Cert.Kernel.Gen.frame m ρ

/-- So does the kernel read at exact arithmetic. -/
theorem frame_kernel_ideal : Cert.frame_KernelIdeal := fun m ρ _ => Cert.KernelIdeal.Gen.frame m ρ

/-- The reference runs to the end and leaves its arguments as they were: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- No operation of the kernel was rewritten for exact arithmetic. -/
theorem preserves : Cert.preserves_Kernel_KernelIdeal := trivial

/-- From memories that agree on the four arguments, both programs end with the masked linear map of those
    arguments in their result array. -/
theorem algebraic : Cert.algebraic_KernelIdeal_ReferenceIdeal := by
  intro m ρ m' ρ' _ hagree
  refine ⟨fun c => Cert.KernelIdeal.Whole.target m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v5_eq, Cert.ReferenceIdeal.RefValue.stage_eq,
    (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
